-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64x64 .f32) (main_arg8 : FVec F S64x64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S128x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S128x128 : Shape := ⟨2, ![128, 128]⟩
abbrev S64x128 : Shape := ⟨2, ![64, 128]⟩
abbrev S10000x128 : Shape := ⟨2, ![10000, 128]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S10000x64 : Shape := ⟨2, ![10000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x64 : Shape := ⟨2, ![1, 64]⟩
abbrev S1x1 : Shape := ⟨2, ![1, 1]⟩

abbrev nBuf : Space → Nat
  | .hbm => 99
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .f32⟩
  | .hbm, ⟨18, _⟩ => ⟨S64x128, .f32⟩
  | .hbm, ⟨19, _⟩ => ⟨S64x128, .f32⟩
  | .hbm, ⟨20, _⟩ => ⟨S50000x128, .f32⟩
  | .hbm, ⟨21, _⟩ => ⟨S50000x64, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x128, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S50000x128, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000x64, .f32⟩
  | .hbm, ⟨79, _⟩ => ⟨S50000x64, .f32⟩
  | .hbm, ⟨80, _⟩ => ⟨S_, .f32⟩
  | .hbm, ⟨81, _⟩ => ⟨S512x64, .f32⟩
  | .hbm, ⟨82, _⟩ => ⟨S50000x1, .i32⟩
  | .hbm, ⟨83, _⟩ => ⟨S512x64, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S512, .f32⟩
  | .hbm, ⟨88, _⟩ => ⟨S50000x1, .i32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512x1, .f32⟩
  | .hbm, ⟨94, _⟩ => ⟨S512x64, .f32⟩
  | .hbm, ⟨95, _⟩ => ⟨S512x64, .f32⟩
  | .hbm, ⟨96, _⟩ => ⟨S1x64, .f32⟩
  | .hbm, ⟨97, _⟩ => ⟨S1x1, .f32⟩
  | .hbm, ⟨98, _⟩ => ⟨S512x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x64, .f32⟩
  | .local _ .vmem, ⟨6, _⟩ => ⟨S10000x64, .f32⟩
  | .local _ .vmem, ⟨7, _⟩ => ⟨S64x128, .f32⟩
  | .local _ .vmem, ⟨8, _⟩ => ⟨S10000x128, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S10000x128, .f32⟩
  | .local _ .vmem, ⟨14, _⟩ => ⟨S10000x128, .f32⟩
  | .local _ .vmem, ⟨15, _⟩ => ⟨S512x64, .f32⟩
  | .local _ .vmem, ⟨16, _⟩ => ⟨S64x64, .f32⟩
  | .local _ .vmem, ⟨17, _⟩ => ⟨S1x64, .f32⟩
  | .local _ .vmem, ⟨18, _⟩ => ⟨S64x1, .f32⟩
  | .local _ .vmem, ⟨19, _⟩ => ⟨S1x1, .f32⟩
  | .local _ .vmem, ⟨20, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x64_S128x64_S128x128_d1 : Shape.Concatenates [S128x64, S128x64] S128x128 1
  concatenates_S64x64_S64x64_S64x128_d1 : Shape.Concatenates [S64x64, S64x64] S64x128 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S64_S1x64 : S64.ShapeCasts S1x64
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S10000x128_S128x128_S10000x128_1_0_0_1_n_n_wf : DotDims.WF S10000x128 S128x128 S10000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x64 : Shape := ⟨2, ![1, 64]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S512x64, .f32⟩
  | .hbm, ⟨76, _⟩ => ⟨S50000x1, .i32⟩
  | .hbm, ⟨77, _⟩ => ⟨S512x64, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S512, .f32⟩
  | .hbm, ⟨82, _⟩ => ⟨S50000x1, .i32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512x1, .f32⟩
  | .hbm, ⟨88, _⟩ => ⟨S512x64, .f32⟩
  | .hbm, ⟨89, _⟩ => ⟨S512x64, .f32⟩
  | .hbm, ⟨90, _⟩ => ⟨S512x64, .f32⟩
  | .hbm, ⟨91, _⟩ => ⟨S1x64, .f32⟩
  | .hbm, ⟨92, _⟩ => ⟨S512x64, .f32⟩
  | .hbm, ⟨93, _⟩ => ⟨S512x64, .f32⟩
  | .hbm, ⟨94, _⟩ => ⟨S_, .f32⟩
  | .hbm, ⟨95, _⟩ => ⟨S512x64, .f32⟩
  | .hbm, ⟨96, _⟩ => ⟨S512x64, .f32⟩
  | .hbm, ⟨97, _⟩ => ⟨S512x1, .f32⟩
  | .hbm, ⟨98, _⟩ => ⟨S1x1, .f32⟩
  | .hbm, ⟨99, _⟩ => ⟨S512x1, .f32⟩
  | .hbm, ⟨100, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call2_cst : Ref sig .tc := ⟨.hbm, 71, rfl⟩
abbrev main_call2_v0 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call3_cst : Ref sig .tc := ⟨.hbm, 94, rfl⟩
abbrev main_call3_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x128_S128x64_S50000x64_1_0_0_1_n_n_wf : DotDims.WF S50000x128 S128x64 S50000x64 [1] [0] [0] [1] [] []
  gather_S50000x128_S800000x1_S800000x128_1_0_n_n_0_1_1128_wf : GatherDims.WF S50000x128 S800000x1 S800000x128 [1] [0] [] [0] [] 1 ![1, 128]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KernelRun.lean ====
/-
  The run of the idealized program with its result named.

  The program is four kernel launches among stretches of host operations. Its buffers' contents at the eight
  boundaries between these segments are a fold from the launch memory: a stretch of host operations applies them in
  order, a launch leaves each of its arrays at what its write-backs left and every other buffer alone. Every weakly
  fair execution terminates, nothing faulting, with every unscoped buffer at the last boundary's contents; in
  particular the result buffer holds the last fold's value at it, and the argument arrays are as launched.
-/
import proofs.«170700_j37177236914939_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibPackedProjection.lean ====
/-
  A node-side projection through packed weights, against the two separate products.

  Two weight matrices `Wa : [c, b1]` and `Wb : [c, b2]` laid side by side make one matrix `[c, b]` with
  `b = b1 + b2`. The product of `x : [n, c]` with the packed matrix holds, in its first `b1` columns, the product
  `x · Wa`, and in its last `b2` columns the product `x · Wb`: at `(p, q)` each is the sum over `k` of
  `x (p, k)` times the weight at `(k, q)`, and the packed weight at column `q` is `Wa`'s when `q < b1`
  and `Wb`'s at `q - b1` otherwise. Gathering rows commutes with a product on the right: row `e` of the
  gathered product is the product's row `r e`, whose entries are sums over `k` of `x (r e, k)` times the weight —
  the same sums the product of the gathered rows has. No law of arithmetic is used beyond reading the same sum twice,
  so the statements hold on the extended reals without finiteness.
-/
import Idealize.ShloMosaic.Lib.ValueIdx
import Idealize.ShloMosaic.Lib.ValueLayout
import Idealize.ShloMosaic.Lib.Pipeline.Value
import Idealize.ShloMosaic.PureOps.Ideal.Laws
import proofs.«170700_j37177236914939_2_alg».proof.Proof.LibPlainDot
import proofs.«170700_j37177236914939_2_alg».proof.Proof.LibGatherScatter

noncomputable section

open scoped BigOperators

namespace Cert.Lib.PackedProjection

open Idealize.ShloMosaic Idealize.ShloMosaic.ValueIdx Cert.Lib.GatherScatter

variable {n c b b1 b2 R w : Nat}

/-- The product of `x : [n, c]` with `W : [c, b]` as one array: at `(p, q)` the sum over `k` of
    `x (p, k) * W (k, q)`. -/
def prod (x : FVec Ideal ⟨2, ![n, c]⟩ .f32) (W : FVec Ideal ⟨2, ![c, b]⟩ .f32) : FVec Ideal ⟨2, ![n, b]⟩ .f32 :=
  fun j => ∑ k : Fin c, x (ix2 (j 0) k) * W (ix2 k (j 1))

theorem prod_apply (x : FVec Ideal ⟨2, ![n, c]⟩ .f32) (W : FVec Ideal ⟨2, ![c, b]⟩ .f32) (p : Fin n) (q : Fin b) :
    prod x W (ix2 p q) = ∑ k : Fin c, x (ix2 p k) * W (ix2 k q) := rfl

/-- The packed weights at a column of the first piece. -/
theorem packed_left (Wa : FVec Ideal ⟨2, ![c, b1]⟩ .f32) (Wb : FVec Ideal ⟨2, ![c, b2]⟩ .f32)
    (hc : Shape.Concatenates [(⟨2, ![c, b1]⟩ : Shape), ⟨2, ![c, b2]⟩] ⟨2, ![c, b]⟩ 1)
    (k : Fin c) (q : Fin b1) (q' : Fin b) (hq : q'.val = q.val) :
    concatenate ⟨2, ![c, b]⟩ 1 [⟨⟨2, ![c, b1]⟩, Wa⟩, ⟨⟨2, ![c, b2]⟩, Wb⟩] hc (ix2 k q') = Wa (ix2 k q) :=
  concatenate_pair_apply_left 1 Wa Wb hc (ix2 k q') rfl (ix2 k q) fun ax => by
    match ax with
    | ⟨0, _⟩ => rfl
    | ⟨1, _⟩ => exact hq.symm

/-- The packed weights at a column of the second piece. -/
theorem packed_right (Wa : FVec Ideal ⟨2, ![c, b1]⟩ .f32) (Wb : FVec Ideal ⟨2, ![c, b2]⟩ .f32)
    (hc : Shape.Concatenates [(⟨2, ![c, b1]⟩ : Shape), ⟨2, ![c, b2]⟩] ⟨2, ![c, b]⟩ 1)
    (k : Fin c) (q : Fin b2) (q' : Fin b) (hq : q'.val = b1 + q.val) :
    concatenate ⟨2, ![c, b]⟩ 1 [⟨⟨2, ![c, b1]⟩, Wa⟩, ⟨⟨2, ![c, b2]⟩, Wb⟩] hc (ix2 k q') = Wb (ix2 k q) :=
  concatenate_pair_apply_right 1 Wa Wb hc (ix2 k q') rfl rfl (ix2 k q)
    (fun ax hax => by
      match ax with
      | ⟨0, _⟩ => rfl
      | ⟨1, _⟩ => exact absurd rfl hax)
    (by show q.val + b1 = q'.val; omega)

/-- The first `b1` columns of the packed product are the product with the first weight matrix. -/
theorem self_part (x : FVec Ideal ⟨2, ![n, c]⟩ .f32) (Wa : FVec Ideal ⟨2, ![c, b1]⟩ .f32)
    (Wb : FVec Ideal ⟨2, ![c, b2]⟩ .f32)
    (hc : Shape.Concatenates [(⟨2, ![c, b1]⟩ : Shape), ⟨2, ![c, b2]⟩] ⟨2, ![c, b]⟩ 1)
    (hs : (⟨2, ![n, b]⟩ : Shape).Slices ![0, 0] ⟨2, ![n, b1]⟩)
    (wf : DotDims.WF ⟨2, ![n, c]⟩ ⟨2, ![c, b1]⟩ ⟨2, ![n, b1]⟩ [1] [0] [0] [1] [] []) (hb : b1 ≤ b) :
    extractStridedSlice ⟨2, ![n, b1]⟩ ![0, 0]
        (prod x (concatenate ⟨2, ![c, b]⟩ 1 [⟨⟨2, ![c, b1]⟩, Wa⟩, ⟨⟨2, ![c, b2]⟩, Wb⟩] hc)) hs
      = Host.dotGeneral (Cert.Lib.PlainDot.dims wf) none x Wa := by
  funext j
  obtain ⟨p, q, rfl⟩ : ∃ (p : Fin n) (q : Fin b1), j = ix2 p q := ⟨j 0, j 1, eq_ix2 j⟩
  rw [slice2_axis1_apply 0 _ hs p q ⟨q.val, lt_of_lt_of_le q.isLt hb⟩ (Nat.zero_add _).symm,
    Cert.Lib.PlainDot.dotGeneral_apply wf none x Wa p q, prod_apply]
  exact Finset.sum_congr rfl fun k _ => congrArg (x (ix2 p k) * ·) (packed_left Wa Wb hc k q _ rfl)

/-- Rows of the last `b2` columns of the packed product, gathered through a column of words, are the product of
    the gathered rows of `x` with the second weight matrix. -/
theorem message_part (hn : 0 < n) (x : FVec Ideal ⟨2, ![n, c]⟩ .f32) (Wa : FVec Ideal ⟨2, ![c, b1]⟩ .f32)
    (Wb : FVec Ideal ⟨2, ![c, b2]⟩ .f32) (idx : IVec ⟨2, ![R, 1]⟩ w)
    (hc : Shape.Concatenates [(⟨2, ![c, b1]⟩ : Shape), ⟨2, ![c, b2]⟩] ⟨2, ![c, b]⟩ 1)
    (hs : (⟨2, ![n, b]⟩ : Shape).Slices ![0, b1] ⟨2, ![n, b2]⟩)
    (wfg : GatherDims.WF ⟨2, ![n, b2]⟩ ⟨2, ![R, 1]⟩ ⟨2, ![R, b2]⟩ [1] [0] [] [0] [] 1 ![1, b2])
    (wfg' : GatherDims.WF ⟨2, ![n, c]⟩ ⟨2, ![R, 1]⟩ ⟨2, ![R, c]⟩ [1] [0] [] [0] [] 1 ![1, c])
    (wf : DotDims.WF ⟨2, ![R, c]⟩ ⟨2, ![c, b2]⟩ ⟨2, ![R, b2]⟩ [1] [0] [0] [1] [] []) (hb : b = b1 + b2) :
    Host.gather (rowGatherDims n b2 R wfg)
        (extractStridedSlice ⟨2, ![n, b2]⟩ ![0, b1]
          (prod x (concatenate ⟨2, ![c, b]⟩ 1 [⟨⟨2, ![c, b1]⟩, Wa⟩, ⟨⟨2, ![c, b2]⟩, Wb⟩] hc)) hs) idx
      = Host.dotGeneral (Cert.Lib.PlainDot.dims wf) none (Host.gather (rowGatherDims n c R wfg') x idx) Wb := by
  funext j
  obtain ⟨e, q, rfl⟩ : ∃ (e : Fin R) (q : Fin b2), j = ix2 e q := ⟨j 0, j 1, eq_ix2 j⟩
  rw [rowGather_apply hn wfg _ idx e q,
    slice2_axis1_apply b1 _ hs (gatherRow hn idx e) q ⟨b1 + q.val, by have := q.isLt; omega⟩ rfl,
    Cert.Lib.PlainDot.dotGeneral_apply wf none _ Wb e q, prod_apply]
  refine Finset.sum_congr rfl fun k _ => ?_
  rw [rowGather_apply hn wfg' x idx e k, packed_right Wa Wb hc k q _ rfl]

end Cert.Lib.PackedProjection

end
-- ==== Proof.Region0.lean ====
/-
  Launch 0's output array: the product of its two operand arrays.

  The launch runs over five grid points. Point `t` stages rows `10000 t … 10000 t + 9999` of the left operand and the
  whole right operand, forms their product into a zero accumulator (the narrowing of the operands to a shorter
  float format is the identity on exact values), and writes the 10000 × 128 block back to the same rows of the
  output. Entry `(r, q)` of that block is the sum over `k` of the left block's `(r, k)` times the right operand's
  `(k, q)`, which is entry `(10000 t + r, q)` of the whole product; the five blocks tile the 50000 rows, so the
  output array ends as the whole product of the arrays the launch found.
-/
import proofs.«170700_j37177236914939_2_alg».proof.Proof.Gen.KernelIdeal.Frame
import proofs.«170700_j37177236914939_2_alg».proof.Proof.LibPlainDot
import proofs.«170700_j37177236914939_2_alg».proof.Proof.LibPackedProjection
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PackedProjection (prod)

theorem zero_offsets : (![0, 0] : Fin 2 → Nat) = fun _ => 0 := funext fun a => by fin_cases a <;> rfl

/-- The body's stored value at `(r, q)`: the sum over `k` of the left block at `(r, k)` times the right operand
    at `(k, q)`. -/
theorem payload_apply (x0 : Vec Ideal S10000x128 .f32) (x1 : Vec Ideal S128x128 .f32) (r : Fin 10000) (q : Fin 128) :
    k0_pay1 (F := Ideal) x0 x1 (ix2 r q) = ∑ k : Fin 128, x0 (ix2 r k) * x1 (ix2 k q) := by
  unfold k0_pay1
  refine (Cert.Lib.PlainDot.matmul_zero_apply dot_S10000x128_S128x128_S10000x128_1_0_0_1_n_n_wf none _ _ r q).trans ?_
  refine Finset.sum_congr rfl fun k _ => ?_
  rw [shapeCast_self x1]
  rfl

/-- The printed index maps over the grid: the left operand's and the output's blocks sit at rows `10000 t`, the
    right operand's block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product. -/
theorem flushed_eq (c : Dev nD) (t : Fin cfg0.N) :
    (dat0 V c).flushed 2 t = ((cfg0.win 2).blk t).view.read (Elt Ideal) (prod (V c main_arg0) (V c main_v4)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_facts t
  funext j
  have hj0 : (j 0).val < 10000 := (j 0).isLt
  have hj1 : (j 1).val < 128 := (j 1).isLt
  have ht : t.val < 5 := t.isLt
  show k0_pay1 (F := Ideal) (iblk0 V c 0 t) (iblk0 V c 1 t) j = prod (V c main_arg0) (V c main_v4) (((cfg0.win 2).blk t).view.emb j)
  refine ((congrArg (k0_pay1 (F := Ideal) (iblk0 V c 0 t) (iblk0 V c 1 t)) (eq_ix2 j)).trans (payload_apply _ _ (j 0) (j 1))).trans ?_
  refine Finset.sum_congr rfl fun k _ => ?_
  refine congr (congrArg _ ?_) ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_v4 (((cfg0.win 1).blk t).view.emb (ix2 k (j 1))) = V c main_v4 (ix2 k ((((cfg0.win 2).blk t).view.emb j) 1))
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff its row lies in the block's 10000 rows. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v7).slice (win0_2.rect t)).set ↔ _
  rw [View.set_slice_whole, Rect.mem_set_unit]
  exact Iff.rfl

/-- Every index of the output array is in the block of the point its row names. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 10000, by show (i 0).val / 10000 < 5; omega⟩, flush0_2 _, ?_⟩
  rw [mem_block]
  obtain ⟨e0, e1, e2, e3, e4, e5⟩ := index_facts ⟨(i 0).val / 10000, by show (i 0).val / 10000 < 5; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- The output array after the launch is the whole product of the operand arrays the launch found. -/
theorem final (c : Dev nD) : (dat0 V c).arrAt 2 cfg0.N = prod (V c main_arg0) (V c main_v4) :=
  (dat0 V c).arrAt_eq_of_cover 2 (prod (V c main_arg0) (V c main_v4)) (fun t _ => flushed_eq V c t) covered

end Cert.KernelIdeal.Region0

end
-- ==== Proof.Region1.lean ====
/-
  Launch 1's output array: the product of its two operand arrays.

  The launch runs over five grid points. Point `t` stages rows `10000 t … 10000 t + 9999` of the left operand and the
  whole right operand, forms their product into a zero accumulator (the narrowing of the operands to a shorter
  float format is the identity on exact values), and writes the 10000 × 128 block back to the same rows of the
  output. Entry `(r, q)` of that block is the sum over `k` of the left block's `(r, k)` times the right operand's
  `(k, q)`, which is entry `(10000 t + r, q)` of the whole product; the five blocks tile the 50000 rows, so the
  output array ends as the whole product of the arrays the launch found.
-/
import proofs.«170700_j37177236914939_2_alg».proof.Proof.Gen.KernelIdeal.Frame
import proofs.«170700_j37177236914939_2_alg».proof.Proof.LibPlainDot
import proofs.«170700_j37177236914939_2_alg».proof.Proof.LibPackedProjection
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PackedProjection (prod)

theorem zero_offsets : (![0, 0] : Fin 2 → Nat) = fun _ => 0 := funext fun a => by fin_cases a <;> rfl

/-- The body's stored value at `(r, q)`: the sum over `k` of the left block at `(r, k)` times the right operand
    at `(k, q)`. -/
theorem payload_apply (x0 : Vec Ideal S10000x64 .f32) (x1 : Vec Ideal S64x128 .f32) (r : Fin 10000) (q : Fin 128) :
    k1_pay1 (F := Ideal) x0 x1 (ix2 r q) = ∑ k : Fin 64, x0 (ix2 r k) * x1 (ix2 k q) := by
  unfold k1_pay1
  refine (Cert.Lib.PlainDot.matmul_zero_apply dot_S10000x64_S64x128_S10000x128_1_0_0_1_n_n_wf none _ _ r q).trans ?_
  refine Finset.sum_congr rfl fun k _ => ?_
  rw [shapeCast_self x1]
  rw [shapeCast_self x0]
  rfl

/-- The printed index maps over the grid: the left operand's and the output's blocks sit at rows `10000 t`, the
    right operand's block is the whole array. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product. -/
theorem flushed_eq (c : Dev nD) (t : Fin cfg1.N) :
    (dat1 V c).flushed 2 t = ((cfg1.win 2).blk t).view.read (Elt Ideal) (prod (V c main_v22) (V c main_v5)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x128) zero_offsets]
  obtain ⟨e0, e1, e2, e3, e4, e5⟩ := index_facts t
  funext j
  have hj0 : (j 0).val < 10000 := (j 0).isLt
  have hj1 : (j 1).val < 128 := (j 1).isLt
  have ht : t.val < 5 := t.isLt
  show k1_pay1 (F := Ideal) (iblk1 V c 0 t) (iblk1 V c 1 t) j = prod (V c main_v22) (V c main_v5) (((cfg1.win 2).blk t).view.emb j)
  refine ((congrArg (k1_pay1 (F := Ideal) (iblk1 V c 0 t) (iblk1 V c 1 t)) (eq_ix2 j)).trans (payload_apply _ _ (j 0) (j 1))).trans ?_
  refine Finset.sum_congr rfl fun k _ => ?_
  refine congr (congrArg _ ?_) ?_
  · show V c main_v22 (((cfg1.win 0).blk t).view.emb (ix2 (j 0) k)) = V c main_v22 (ix2 ((((cfg1.win 2).blk t).view.emb j) 0) k)
    refine congrArg (V c main_v22) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  · show V c main_v5 (((cfg1.win 1).blk t).view.emb (ix2 k (j 1))) = V c main_v5 (ix2 k ((((cfg1.win 2).blk t).view.emb j) 1))
    refine congrArg (V c main_v5) (funext fun a => Fin.ext ?_)
    match a with
    | ⟨0, _⟩ => show win1_1.index t (0 : Fin 2) * 64 + 1 * k.val = k.val; omega
    | ⟨1, _⟩ => show win1_1.index t (1 : Fin 2) * 128 + 1 * (j 1).val = win1_2.index t (1 : Fin 2) * 128 + 1 * (j 1).val; omega

/-- An index of the output array is in point `t`'s block iff its row lies in the block's 10000 rows. -/
theorem mem_block (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v23).slice (win1_2.rect t)).set ↔ _
  rw [View.set_slice_whole, Rect.mem_set_unit]
  exact Iff.rfl

/-- Every index of the output array is in the block of the point its row names. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 10000, by show (i 0).val / 10000 < 5; omega⟩, flush1_2 _, ?_⟩
  rw [mem_block]
  obtain ⟨e0, e1, e2, e3, e4, e5⟩ := index_facts ⟨(i 0).val / 10000, by show (i 0).val / 10000 < 5; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e5]; omega

/-- The output array after the launch is the whole product of the operand arrays the launch found. -/
theorem final (c : Dev nD) : (dat1 V c).arrAt 2 cfg1.N = prod (V c main_v22) (V c main_v5) :=
  (dat1 V c).arrAt_eq_of_cover 2 (prod (V c main_v22) (V c main_v5)) (fun t _ => flushed_eq V c t) covered

end Cert.KernelIdeal.Region1

end
-- ==== Proof.Region2.lean ====
/-
  Launch 2's output array: the product of its two operand arrays.

  The launch runs over five grid points. Point `t` stages rows `10000 t … 10000 t + 9999` of the left operand and the
  whole right operand, forms their product into a zero accumulator (the narrowing of the operands to a shorter
  float format is the identity on exact values), and writes the 10000 × 128 block back to the same rows of the
  output. Entry `(r, q)` of that block is the sum over `k` of the left block's `(r, k)` times the right operand's
  `(k, q)`, which is entry `(10000 t + r, q)` of the whole product; the five blocks tile the 50000 rows, so the
  output array ends as the whole product of the arrays the launch found.
-/
import proofs.«170700_j37177236914939_2_alg».proof.Proof.Gen.KernelIdeal.Frame
import proofs.«170700_j37177236914939_2_alg».proof.Proof.LibPlainDot
import proofs.«170700_j37177236914939_2_alg».proof.Proof.LibPackedProjection
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PackedProjection (prod)

theorem zero_offsets : (![0, 0] : Fin 2 → Nat) = fun _ => 0 := funext fun a => by fin_cases a <;> rfl

/-- The body's stored value at `(r, q)`: the sum over `k` of the left block at `(r, k)` times the right operand
    at `(k, q)`. -/
theorem payload_apply (x0 : Vec Ideal S10000x64 .f32) (x1 : Vec Ideal S64x128 .f32) (r : Fin 10000) (q : Fin 128) :
    k2_pay1 (F := Ideal) x0 x1 (ix2 r q) = ∑ k : Fin 64, x0 (ix2 r k) * x1 (ix2 k q) := by
  unfold k2_pay1
  refine (Cert.Lib.PlainDot.matmul_zero_apply dot_S10000x64_S64x128_S10000x128_1_0_0_1_n_n_wf none _ _ r q).trans ?_
  refine Finset.sum_congr rfl fun k _ => ?_
  rw [shapeCast_self x1]
  rw [shapeCast_self x0]
  rfl

/-- The printed index maps over the grid: the left operand's and the output's blocks sit at rows `10000 t`, the
    right operand's block is the whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the whole product. -/
theorem flushed_eq (c : Dev nD) (t : Fin cfg2.N) :
    (dat2 V c).flushed 2 t = ((cfg2.win 2).blk t).view.read (Elt Ideal) (prod (V c main_v38) (V c main_v6)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x128) zero_offsets]
  obtain ⟨e0, e1, e2, e3, e4, e5⟩ := index_facts t
  funext j
  have hj0 : (j 0).val < 10000 := (j 0).isLt
  have hj1 : (j 1).val < 128 := (j 1).isLt
  have ht : t.val < 5 := t.isLt
  show k2_pay1 (F := Ideal) (iblk2 V c 0 t) (iblk2 V c 1 t) j = prod (V c main_v38) (V c main_v6) (((cfg2.win 2).blk t).view.emb j)
  refine ((congrArg (k2_pay1 (F := Ideal) (iblk2 V c 0 t) (iblk2 V c 1 t)) (eq_ix2 j)).trans (payload_apply _ _ (j 0) (j 1))).trans ?_
  refine Finset.sum_congr rfl fun k _ => ?_
  refine congr (congrArg _ ?_) ?_
  · show V c main_v38 (((cfg2.win 0).blk t).view.emb (ix2 (j 0) k)) = V c main_v38 (ix2 ((((cfg2.win 2).blk t).view.emb j) 0) k)
    refine congrArg (V c main_v38) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_v6 (((cfg2.win 1).blk t).view.emb (ix2 k (j 1))) = V c main_v6 (ix2 k ((((cfg2.win 2).blk t).view.emb j) 1))
    refine congrArg (V c main_v6) (funext fun a => Fin.ext ?_)
    match a with
    | ⟨0, _⟩ => show win2_1.index t (0 : Fin 2) * 64 + 1 * k.val = k.val; omega
    | ⟨1, _⟩ => show win2_1.index t (1 : Fin 2) * 128 + 1 * (j 1).val = win2_2.index t (1 : Fin 2) * 128 + 1 * (j 1).val; omega

/-- An index of the output array is in point `t`'s block iff its row lies in the block's 10000 rows. -/
theorem mem_block (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v39).slice (win2_2.rect t)).set ↔ _
  rw [View.set_slice_whole, Rect.mem_set_unit]
  exact Iff.rfl

/-- Every index of the output array is in the block of the point its row names. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 10000, by show (i 0).val / 10000 < 5; omega⟩, flush2_2 _, ?_⟩
  rw [mem_block]
  obtain ⟨e0, e1, e2, e3, e4, e5⟩ := index_facts ⟨(i 0).val / 10000, by show (i 0).val / 10000 < 5; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [e5]; omega

/-- The output array after the launch is the whole product of the operand arrays the launch found. -/
theorem final (c : Dev nD) : (dat2 V c).arrAt 2 cfg2.N = prod (V c main_v38) (V c main_v6) :=
  (dat2 V c).arrAt_eq_of_cover 2 (prod (V c main_v38) (V c main_v6)) (fun t _ => flushed_eq V c t) covered

end Cert.KernelIdeal.Region2

end
-- ==== Proof.Region3.lean ====
/-
  The last launch's output array: the classifier body applied to its five operand arrays.

  The launch has a single grid point, and each of its six windows is a whole array. So the one point stages the
  five operand arrays themselves, the body stores its value through the whole output block, and the write-back
  fills the whole output array: it ends as the body's value at the arrays the launch found.
-/
import proofs.«170700_j37177236914939_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

/-- Every window's block at the one grid point starts at row 0 and column 0. -/
theorem index_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

variable (V : (c : Dev nD) → (b : Ref sig .tc) → Buf (Elt Ideal) ((c : Thread nD τ).loc b))

theorem block0 (c : Dev nD) (t : Fin cfg3.N) : iblk3 V c 0 t = V c main_v66 := by
  obtain ⟨e0, e1, -⟩ := index_facts t
  funext y
  show V c main_v66 (((cfg3.win 0).blk t).view.emb y) = V c main_v66 y
  refine congrArg (V c main_v66) (funext fun a => Fin.ext ?_)
  match a with
  | ⟨0, _⟩ => show win3_0.index t (0 : Fin 2) * 512 + 1 * (y 0).val = (y 0).val; omega
  | ⟨1, _⟩ => show win3_0.index t (1 : Fin 2) * 64 + 1 * (y 1).val = (y 1).val; omega

theorem block1 (c : Dev nD) (t : Fin cfg3.N) : iblk3 V c 1 t = V c main_arg9 := by
  obtain ⟨-, -, e0, e1, -⟩ := index_facts t
  funext y
  show V c main_arg9 (((cfg3.win 1).blk t).view.emb y) = V c main_arg9 y
  refine congrArg (V c main_arg9) (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

theorem block2 (c : Dev nD) (t : Fin cfg3.N) : iblk3 V c 2 t = V c main_v67 := by
  obtain ⟨-, -, -, -, e0, e1, -⟩ := index_facts t
  funext y
  show V c main_v67 (((cfg3.win 2).blk t).view.emb y) = V c main_v67 y
  refine congrArg (V c main_v67) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem block3 (c : Dev nD) (t : Fin cfg3.N) : iblk3 V c 3 t = V c main_arg11 := by
  obtain ⟨-, -, -, -, -, -, e0, e1, -⟩ := index_facts t
  funext y
  show V c main_arg11 (((cfg3.win 3).blk t).view.emb y) = V c main_arg11 y
  refine congrArg (V c main_arg11) (funext fun a => Fin.ext ?_)
  match a with
  | ⟨0, _⟩ => show win3_3.index t (0 : Fin 2) * 64 + 1 * (y 0).val = (y 0).val; omega
  | ⟨1, _⟩ => show win3_3.index t (1 : Fin 2) * 1 + 1 * (y 1).val = (y 1).val; omega

theorem block4 (c : Dev nD) (t : Fin cfg3.N) : iblk3 V c 4 t = V c main_v68 := by
  obtain ⟨-, -, -, -, -, -, -, -, e0, e1, -⟩ := index_facts t
  funext y
  show V c main_v68 (((cfg3.win 4).blk t).view.emb y) = V c main_v68 y
  refine congrArg (V c main_v68) (funext fun a => Fin.ext ?_)
  match a with
  | ⟨0, _⟩ => show win3_4.index t (0 : Fin 2) * 1 + 1 * (y 0).val = (y 0).val; omega
  | ⟨1, _⟩ => show win3_4.index t (1 : Fin 2) * 1 + 1 * (y 1).val = (y 1).val; omega

/-- The body's value at the operand arrays the launch finds. -/
def value (c : Dev nD) : Vec Ideal S512x1 .f32 :=
  k3_pay1 (F := Ideal) (V c main_v66) (V c main_arg9) (V c main_v67) (V c main_arg11) (V c main_v68)

/-- What the one point writes back is the whole of the body's value. -/
theorem flushed_eq (c : Dev nD) (t : Fin cfg3.N) :
    (dat3 V c).flushed 5 t = ((cfg3.win 5).blk t).view.read (Elt Ideal) (value V c) := by
  show (cfg3.win 5).cut (grid3.coords t) ((dat3 V c).after 5 t) = _
  rw [after3_5]
  unfold out3_5
  rw [View.canon_unit_zero zero_offsets]
  simp only [View.ld_unit_zero (S := S512x64) zero_offsets, View.ld_unit_zero (S := S64x64) zero_offsets,
    View.ld_unit_zero (S := S1x64) zero_offsets, View.ld_unit_zero (S := S64x1) zero_offsets,
    View.ld_unit_zero (S := S1x1) zero_offsets]
  rw [block0, block1, block2, block3, block4]
  obtain ⟨-, -, -, -, -, -, -, -, -, -, e0, e1⟩ := index_facts t
  funext j
  show value V c j = value V c (((cfg3.win 5).blk t).view.emb j)
  refine congrArg (value V c) (funext fun a => Fin.ext ?_)
  match a with
  | ⟨0, _⟩ => show (j 0).val = win3_5.index t (0 : Fin 2) * 512 + 1 * (j 0).val; omega
  | ⟨1, _⟩ => show (j 1).val = win3_5.index t (1 : Fin 2) * 1 + 1 * (j 1).val; omega

theorem mem_block (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v69).slice (win3_5.rect t)).set ↔ _
  rw [View.set_slice_whole, Rect.mem_set_unit]
  exact Iff.rfl

theorem covered (i : S512x1.Idx) :
    ∃ t : Fin cfg3.N, (cfg3.win 5).flush t = true ∧ i ∈ ((cfg3.win 5).blk t).view.set := by
  have hi0 : (i 0).val < 512 := (i 0).isLt
  have hi1 : (i 1).val < 1 := (i 1).isLt
  refine ⟨⟨0, by decide⟩, flush3_5 _, ?_⟩
  rw [mem_block]
  obtain ⟨-, -, -, -, -, -, -, -, -, -, e0, e1⟩ := index_facts ⟨0, by decide⟩
  intro a
  match a with
  | ⟨0, _⟩ =>
    show win3_5.index _ (0 : Fin 2) * 512 ≤ (i 0).val ∧ (i 0).val < win3_5.index _ (0 : Fin 2) * 512 + 512
    rw [e0]; omega
  | ⟨1, _⟩ =>
    show win3_5.index _ (1 : Fin 2) * 1 ≤ (i 1).val ∧ (i 1).val < win3_5.index _ (1 : Fin 2) * 1 + 1
    rw [e1]; omega

/-- The output array after the launch is the body's value at the operand arrays the launch found. -/
theorem final (c : Dev nD) : (dat3 V c).arrAt 5 cfg3.N = value V c :=
  (dat3 V c).arrAt_eq_of_cover 5 (value V c) (fun t _ => flushed_eq V c t) covered

end Cert.KernelIdeal.Region3

end
-- ==== Proof.KernelStages.lean ====
/-
  The idealized kernel program's host stretches, and its result, as functions of arrays.

  The edge list's two rows are the edges' source and destination words. A layer takes the product of the node features
  with the layer's two weight matrices packed side by side: the first 64 columns are the self term, the last 64 columns,
  their rows gathered through the source words, the per-edge messages; the messages are accumulated onto the
  destination rows, the self term is added and the sum clipped at zero. After three layers the node features are
  averaged per graph (sums divided by the node counts clipped below at one) and the classifier body is applied to the
  pooled features, the two weight matrices and the two bias vectors laid out as rows.
-/
import proofs.«170700_j37177236914939_2_alg».proof.Proof.Gen.KernelIdeal.Skeleton
import proofs.«170700_j37177236914939_2_alg».proof.Proof.LibPackedProjection
import Idealize.ShloMosaic.PureOps.Ideal

set_option maxRecDepth 16384

noncomputable section

namespace Cert.KernelIdeal.Stages

open Cert.KernelIdeal Cert.KernelIdeal.Facts₀
open Idealize.ShloMosaic Idealize.ShloMosaic.TcCoe
open Cert.Lib.PackedProjection (prod)

/-- A buffer's contents at the exact values: an array of 32-bit words, or of extended reals. -/
abbrev Words (s : Shape) := IVec s 32
abbrev Reals (s : Shape) := FVec Ideal s .f32

/-- Row 0 of the edge list: each edge's source word. -/
def srcWords (ei : Words S2x800000) : Words S800000 :=
  shapeCast _ (extractStridedSlice S1x800000 ![0, 0] ei slices_S2x800000_S1x800000_0_0) shapeCasts_S1x800000_S800000

/-- Row 1 of the edge list: each edge's destination word. -/
def dstWords (ei : Words S2x800000) : Words S800000 :=
  shapeCast _ (extractStridedSlice S1x800000 ![1, 0] ei slices_S2x800000_S1x800000_1_0) shapeCasts_S1x800000_S800000

/-- The source words as a column of gather indices: a negative word is shifted up by the node count first. -/
def gatherColumn (s : Words S800000) : Words S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A layer's output from its self term and its per-edge messages: the messages accumulated onto the destination
    rows, the self term added, the sum clipped at zero. -/
def combine (self : Reals S50000x64) (msg : Reals S800000x64) (d : Words S800000) : Reals S50000x64 :=
  maximumf (addf self (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d) msg))
    (broadcastInDim S50000x64 ![] bcast_S_S50000x64 (constant S_ .f32 0x00000000#32))

/-- A layer's output from the packed projection `P`: its first 64 columns are the self term, its last 64 columns,
    gathered through the source words, the messages. -/
def layerOfPacked (P : Reals S50000x128) (s d : Words S800000) : Reals S50000x64 :=
  combine (extractStridedSlice S50000x64 ![0, 0] P slices_S50000x128_S50000x64_0_0)
    (Host.gather gather_S50000x64_S800000x1_S800000x64_1_0_n_n_0_1_164
      (extractStridedSlice S50000x64 ![0, 64] P slices_S50000x128_S50000x64_0_64) (gatherColumn s)) d

/-- The mean of the node features over each graph: per-graph sums divided by the per-graph node counts clipped
    below at one. -/
def pool (h : Reals S50000x64) (batch : Words S50000) : Reals S512x64 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 batch)
            (broadcastInDim S50000 ![] bcast_S_S50000 (constant S_ .f32 0x3F800000#32)))
          (broadcastInDim S512 ![] bcast_S_S512 (constant S_ .f32 0x3F800000#32)))))

/-- Two weight matrices side by side. -/
def packed128 (Wa Wb : Reals S128x64) : Reals S128x128 :=
  concatenate S128x128 1 [⟨S128x64, Wa⟩, ⟨S128x64, Wb⟩] concatenates_S128x64_S128x64_S128x128_d1
def packed64 (Wa Wb : Reals S64x64) : Reals S64x128 :=
  concatenate S64x128 1 [⟨S64x64, Wa⟩, ⟨S64x64, Wb⟩] concatenates_S64x64_S64x64_S64x128_d1

/-- The node features after each of the three layers. -/
def hidden1 (x : Reals S50000x128) (ei : Words S2x800000) (W11 W21 : Reals S128x64) : Reals S50000x64 :=
  layerOfPacked (prod (n := 50000) (c := 128) (b := 128) x (packed128 W11 W21)) (srcWords ei) (dstWords ei)
def hiddenNext (h : Reals S50000x64) (ei : Words S2x800000) (Wa Wb : Reals S64x64) : Reals S50000x64 :=
  layerOfPacked (prod (n := 50000) (c := 64) (b := 128) h (packed64 Wa Wb)) (srcWords ei) (dstWords ei)

/-- The program's result. -/
def result (x : Reals S50000x128) (ei : Words S2x800000) (batch : Words S50000) (W11 W21 : Reals S128x64)
    (W12 W22 W13 W23 cW1 : Reals S64x64) (cb1 : Reals S64) (cW2 : Reals S64x1) (cb2 : Reals S1) : Reals S512x1 :=
  Gen.k3_pay1 (F := Ideal)
    (pool (hiddenNext (hiddenNext (hidden1 x ei W11 W21) ei W12 W22) ei W13 W23) batch)
    cW1 (shapeCast _ cb1 shapeCasts_S64_S1x64) cW2 (shapeCast _ cb2 shapeCasts_S1_S1x1)

end Cert.KernelIdeal.Stages

end
-- ==== Proof.KernelFold.lean ====
/-
  The idealized program's result buffer, read through the fold of buffer contents at the segment boundaries.

  The first stretch of host operations splits the edge list into its source and destination words and packs each
  layer's two weight matrices side by side; each of the first three launches leaves the product of the current node
  features with a layer's packed weights; the stretch after it forms the layer's output from that product; the last
  stretch also pools the node features per graph and lays the two bias vectors out as rows; the last launch applies
  the classifier body. A buffer no segment writes keeps its contents through the fold.
-/
import proofs.«170700_j37177236914939_2_alg».proof.Proof.Gen.KernelIdeal.Frame
import proofs.«170700_j37177236914939_2_alg».proof.Proof.Region0
import proofs.«170700_j37177236914939_2_alg».proof.Proof.Region1
import proofs.«170700_j37177236914939_2_alg».proof.Proof.Region2
import proofs.«170700_j37177236914939_2_alg».proof.Proof.Region3
import proofs.«170700_j37177236914939_2_alg».proof.Proof.KernelStages
import proofs.«170700_j37177236914939_2_alg».proof.Proof.LibPackedProjection
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Stages
open Idealize.ShloMosaic Idealize.ShloMosaic.TcCoe Idealize.SL.Sem Idealize.ShloMosaic.StableHlo
open Cert.Lib.PackedProjection (prod)

variable (m : (ℓ : Loc nD τ sig) → Buf (Elt Ideal) ℓ) (ρ : Dev nD → PrngReg)

/-! ## After the first stretch -/

theorem main_v1_at1 (c : Dev nD) : W1 m ρ c (Proc.devRef .tc main_v1) = srcWords (m ((c : Thread nD τ).loc main_arg1)) := by
  show StableHlo.after hostOps0 (W0 m ρ c) (Proc.devRef .tc main_v1) = _
  after_results <;> rfl
theorem main_v3_at1 (c : Dev nD) : W1 m ρ c (Proc.devRef .tc main_v3) = dstWords (m ((c : Thread nD τ).loc main_arg1)) := by
  show StableHlo.after hostOps0 (W0 m ρ c) (Proc.devRef .tc main_v3) = _
  after_results <;> rfl
theorem main_v4_at1 (c : Dev nD) : W1 m ρ c (Proc.devRef .tc main_v4) = packed128 (m ((c : Thread nD τ).loc main_arg3)) (m ((c : Thread nD τ).loc main_arg4)) := by
  show StableHlo.after hostOps0 (W0 m ρ c) (Proc.devRef .tc main_v4) = _
  after_results <;> rfl
theorem main_v5_at1 (c : Dev nD) : W1 m ρ c (Proc.devRef .tc main_v5) = packed64 (m ((c : Thread nD τ).loc main_arg5)) (m ((c : Thread nD τ).loc main_arg6)) := by
  show StableHlo.after hostOps0 (W0 m ρ c) (Proc.devRef .tc main_v5) = _
  after_results <;> rfl
theorem main_v6_at1 (c : Dev nD) : W1 m ρ c (Proc.devRef .tc main_v6) = packed64 (m ((c : Thread nD τ).loc main_arg7)) (m ((c : Thread nD τ).loc main_arg8)) := by
  show StableHlo.after hostOps0 (W0 m ρ c) (Proc.devRef .tc main_v6) = _
  after_results <;> rfl
theorem main_arg0_at1 (c : Dev nD) : W1 m ρ c (Proc.devRef .tc main_arg0) = (m ((c : Thread nD τ).loc main_arg0)) := by
  show StableHlo.after hostOps0 (W0 m ρ c) (Proc.devRef .tc main_arg0) = _
  after_results <;> rfl
theorem main_arg2_at1 (c : Dev nD) : W1 m ρ c (Proc.devRef .tc main_arg2) = (m ((c : Thread nD τ).loc main_arg2)) := by
  show StableHlo.after hostOps0 (W0 m ρ c) (Proc.devRef .tc main_arg2) = _
  after_results <;> rfl
theorem main_arg9_at1 (c : Dev nD) : W1 m ρ c (Proc.devRef .tc main_arg9) = (m ((c : Thread nD τ).loc main_arg9)) := by
  show StableHlo.after hostOps0 (W0 m ρ c) (Proc.devRef .tc main_arg9) = _
  after_results <;> rfl
theorem main_arg10_at1 (c : Dev nD) : W1 m ρ c (Proc.devRef .tc main_arg10) = (m ((c : Thread nD τ).loc main_arg10)) := by
  show StableHlo.after hostOps0 (W0 m ρ c) (Proc.devRef .tc main_arg10) = _
  after_results <;> rfl
theorem main_arg11_at1 (c : Dev nD) : W1 m ρ c (Proc.devRef .tc main_arg11) = (m ((c : Thread nD τ).loc main_arg11)) := by
  show StableHlo.after hostOps0 (W0 m ρ c) (Proc.devRef .tc main_arg11) = _
  after_results <;> rfl
theorem main_arg12_at1 (c : Dev nD) : W1 m ρ c (Proc.devRef .tc main_arg12) = (m ((c : Thread nD τ).loc main_arg12)) := by
  show StableHlo.after hostOps0 (W0 m ρ c) (Proc.devRef .tc main_arg12) = _
  after_results <;> rfl

/-! ## Buffers carried through the later segments -/

theorem main_v1_at2 (c : Dev nD) : W2 m ρ c (Proc.devRef .tc main_v1) = srcWords (m ((c : Thread nD τ).loc main_arg1)) :=
  (W2_of_ne m ρ c main_v1 (by decide)).trans (main_v1_at1 m ρ c)
theorem main_v1_at3 (c : Dev nD) : W3 m ρ c (Proc.devRef .tc main_v1) = srcWords (m ((c : Thread nD τ).loc main_arg1)) :=
  (show StableHlo.after hostOps1 (W2 m ρ c) (Proc.devRef .tc main_v1) = W2 m ρ c (Proc.devRef .tc main_v1) by after_results).trans (main_v1_at2 m ρ c)
theorem main_v1_at4 (c : Dev nD) : W4 m ρ c (Proc.devRef .tc main_v1) = srcWords (m ((c : Thread nD τ).loc main_arg1)) :=
  (W4_of_ne m ρ c main_v1 (by decide)).trans (main_v1_at3 m ρ c)
theorem main_v1_at5 (c : Dev nD) : W5 m ρ c (Proc.devRef .tc main_v1) = srcWords (m ((c : Thread nD τ).loc main_arg1)) :=
  (show StableHlo.after hostOps2 (W4 m ρ c) (Proc.devRef .tc main_v1) = W4 m ρ c (Proc.devRef .tc main_v1) by after_results).trans (main_v1_at4 m ρ c)
theorem main_v1_at6 (c : Dev nD) : W6 m ρ c (Proc.devRef .tc main_v1) = srcWords (m ((c : Thread nD τ).loc main_arg1)) :=
  (W6_of_ne m ρ c main_v1 (by decide)).trans (main_v1_at5 m ρ c)
theorem main_v3_at2 (c : Dev nD) : W2 m ρ c (Proc.devRef .tc main_v3) = dstWords (m ((c : Thread nD τ).loc main_arg1)) :=
  (W2_of_ne m ρ c main_v3 (by decide)).trans (main_v3_at1 m ρ c)
theorem main_v3_at3 (c : Dev nD) : W3 m ρ c (Proc.devRef .tc main_v3) = dstWords (m ((c : Thread nD τ).loc main_arg1)) :=
  (show StableHlo.after hostOps1 (W2 m ρ c) (Proc.devRef .tc main_v3) = W2 m ρ c (Proc.devRef .tc main_v3) by after_results).trans (main_v3_at2 m ρ c)
theorem main_v3_at4 (c : Dev nD) : W4 m ρ c (Proc.devRef .tc main_v3) = dstWords (m ((c : Thread nD τ).loc main_arg1)) :=
  (W4_of_ne m ρ c main_v3 (by decide)).trans (main_v3_at3 m ρ c)
theorem main_v3_at5 (c : Dev nD) : W5 m ρ c (Proc.devRef .tc main_v3) = dstWords (m ((c : Thread nD τ).loc main_arg1)) :=
  (show StableHlo.after hostOps2 (W4 m ρ c) (Proc.devRef .tc main_v3) = W4 m ρ c (Proc.devRef .tc main_v3) by after_results).trans (main_v3_at4 m ρ c)
theorem main_v3_at6 (c : Dev nD) : W6 m ρ c (Proc.devRef .tc main_v3) = dstWords (m ((c : Thread nD τ).loc main_arg1)) :=
  (W6_of_ne m ρ c main_v3 (by decide)).trans (main_v3_at5 m ρ c)
theorem main_v5_at2 (c : Dev nD) : W2 m ρ c (Proc.devRef .tc main_v5) = packed64 (m ((c : Thread nD τ).loc main_arg5)) (m ((c : Thread nD τ).loc main_arg6)) :=
  (W2_of_ne m ρ c main_v5 (by decide)).trans (main_v5_at1 m ρ c)
theorem main_v5_at3 (c : Dev nD) : W3 m ρ c (Proc.devRef .tc main_v5) = packed64 (m ((c : Thread nD τ).loc main_arg5)) (m ((c : Thread nD τ).loc main_arg6)) :=
  (show StableHlo.after hostOps1 (W2 m ρ c) (Proc.devRef .tc main_v5) = W2 m ρ c (Proc.devRef .tc main_v5) by after_results).trans (main_v5_at2 m ρ c)
theorem main_v6_at2 (c : Dev nD) : W2 m ρ c (Proc.devRef .tc main_v6) = packed64 (m ((c : Thread nD τ).loc main_arg7)) (m ((c : Thread nD τ).loc main_arg8)) :=
  (W2_of_ne m ρ c main_v6 (by decide)).trans (main_v6_at1 m ρ c)
theorem main_v6_at3 (c : Dev nD) : W3 m ρ c (Proc.devRef .tc main_v6) = packed64 (m ((c : Thread nD τ).loc main_arg7)) (m ((c : Thread nD τ).loc main_arg8)) :=
  (show StableHlo.after hostOps1 (W2 m ρ c) (Proc.devRef .tc main_v6) = W2 m ρ c (Proc.devRef .tc main_v6) by after_results).trans (main_v6_at2 m ρ c)
theorem main_v6_at4 (c : Dev nD) : W4 m ρ c (Proc.devRef .tc main_v6) = packed64 (m ((c : Thread nD τ).loc main_arg7)) (m ((c : Thread nD τ).loc main_arg8)) :=
  (W4_of_ne m ρ c main_v6 (by decide)).trans (main_v6_at3 m ρ c)
theorem main_v6_at5 (c : Dev nD) : W5 m ρ c (Proc.devRef .tc main_v6) = packed64 (m ((c : Thread nD τ).loc main_arg7)) (m ((c : Thread nD τ).loc main_arg8)) :=
  (show StableHlo.after hostOps2 (W4 m ρ c) (Proc.devRef .tc main_v6) = W4 m ρ c (Proc.devRef .tc main_v6) by after_results).trans (main_v6_at4 m ρ c)
theorem main_arg2_at2 (c : Dev nD) : W2 m ρ c (Proc.devRef .tc main_arg2) = (m ((c : Thread nD τ).loc main_arg2)) :=
  (W2_of_ne m ρ c main_arg2 (by decide)).trans (main_arg2_at1 m ρ c)
theorem main_arg2_at3 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results).trans (main_arg2_at2 m ρ c)
theorem main_arg2_at4 (c : Dev nD) : W4 m ρ c (Proc.devRef .tc main_arg2) = (m ((c : Thread nD τ).loc main_arg2)) :=
  (W4_of_ne m ρ c main_arg2 (by decide)).trans (main_arg2_at3 m ρ c)
theorem main_arg2_at5 (c : Dev nD) : W5 m ρ c (Proc.devRef .tc main_arg2) = (m ((c : Thread nD τ).loc main_arg2)) :=
  (show StableHlo.after hostOps2 (W4 m ρ c) (Proc.devRef .tc main_arg2) = W4 m ρ c (Proc.devRef .tc main_arg2) by after_results).trans (main_arg2_at4 m ρ c)
theorem main_arg2_at6 (c : Dev nD) : W6 m ρ c (Proc.devRef .tc main_arg2) = (m ((c : Thread nD τ).loc main_arg2)) :=
  (W6_of_ne m ρ c main_arg2 (by decide)).trans (main_arg2_at5 m ρ c)
theorem main_arg9_at2 (c : Dev nD) : W2 m ρ c (Proc.devRef .tc main_arg9) = (m ((c : Thread nD τ).loc main_arg9)) :=
  (W2_of_ne m ρ c main_arg9 (by decide)).trans (main_arg9_at1 m ρ c)
theorem main_arg9_at3 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results).trans (main_arg9_at2 m ρ c)
theorem main_arg9_at4 (c : Dev nD) : W4 m ρ c (Proc.devRef .tc main_arg9) = (m ((c : Thread nD τ).loc main_arg9)) :=
  (W4_of_ne m ρ c main_arg9 (by decide)).trans (main_arg9_at3 m ρ c)
theorem main_arg9_at5 (c : Dev nD) : W5 m ρ c (Proc.devRef .tc main_arg9) = (m ((c : Thread nD τ).loc main_arg9)) :=
  (show StableHlo.after hostOps2 (W4 m ρ c) (Proc.devRef .tc main_arg9) = W4 m ρ c (Proc.devRef .tc main_arg9) by after_results).trans (main_arg9_at4 m ρ c)
theorem main_arg9_at6 (c : Dev nD) : W6 m ρ c (Proc.devRef .tc main_arg9) = (m ((c : Thread nD τ).loc main_arg9)) :=
  (W6_of_ne m ρ c main_arg9 (by decide)).trans (main_arg9_at5 m ρ c)
theorem main_arg9_at7 (c : Dev nD) : W7 m ρ c (Proc.devRef .tc main_arg9) = (m ((c : Thread nD τ).loc main_arg9)) :=
  (show StableHlo.after hostOps3 (W6 m ρ c) (Proc.devRef .tc main_arg9) = W6 m ρ c (Proc.devRef .tc main_arg9) by after_results).trans (main_arg9_at6 m ρ c)
theorem main_arg10_at2 (c : Dev nD) : W2 m ρ c (Proc.devRef .tc main_arg10) = (m ((c : Thread nD τ).loc main_arg10)) :=
  (W2_of_ne m ρ c main_arg10 (by decide)).trans (main_arg10_at1 m ρ c)
theorem main_arg10_at3 (c : Dev nD) : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results).trans (main_arg10_at2 m ρ c)
theorem main_arg10_at4 (c : Dev nD) : W4 m ρ c (Proc.devRef .tc main_arg10) = (m ((c : Thread nD τ).loc main_arg10)) :=
  (W4_of_ne m ρ c main_arg10 (by decide)).trans (main_arg10_at3 m ρ c)
theorem main_arg10_at5 (c : Dev nD) : W5 m ρ c (Proc.devRef .tc main_arg10) = (m ((c : Thread nD τ).loc main_arg10)) :=
  (show StableHlo.after hostOps2 (W4 m ρ c) (Proc.devRef .tc main_arg10) = W4 m ρ c (Proc.devRef .tc main_arg10) by after_results).trans (main_arg10_at4 m ρ c)
theorem main_arg10_at6 (c : Dev nD) : W6 m ρ c (Proc.devRef .tc main_arg10) = (m ((c : Thread nD τ).loc main_arg10)) :=
  (W6_of_ne m ρ c main_arg10 (by decide)).trans (main_arg10_at5 m ρ c)
theorem main_arg11_at2 (c : Dev nD) : W2 m ρ c (Proc.devRef .tc main_arg11) = (m ((c : Thread nD τ).loc main_arg11)) :=
  (W2_of_ne m ρ c main_arg11 (by decide)).trans (main_arg11_at1 m ρ c)
theorem main_arg11_at3 (c : Dev nD) : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results).trans (main_arg11_at2 m ρ c)
theorem main_arg11_at4 (c : Dev nD) : W4 m ρ c (Proc.devRef .tc main_arg11) = (m ((c : Thread nD τ).loc main_arg11)) :=
  (W4_of_ne m ρ c main_arg11 (by decide)).trans (main_arg11_at3 m ρ c)
theorem main_arg11_at5 (c : Dev nD) : W5 m ρ c (Proc.devRef .tc main_arg11) = (m ((c : Thread nD τ).loc main_arg11)) :=
  (show StableHlo.after hostOps2 (W4 m ρ c) (Proc.devRef .tc main_arg11) = W4 m ρ c (Proc.devRef .tc main_arg11) by after_results).trans (main_arg11_at4 m ρ c)
theorem main_arg11_at6 (c : Dev nD) : W6 m ρ c (Proc.devRef .tc main_arg11) = (m ((c : Thread nD τ).loc main_arg11)) :=
  (W6_of_ne m ρ c main_arg11 (by decide)).trans (main_arg11_at5 m ρ c)
theorem main_arg11_at7 (c : Dev nD) : W7 m ρ c (Proc.devRef .tc main_arg11) = (m ((c : Thread nD τ).loc main_arg11)) :=
  (show StableHlo.after hostOps3 (W6 m ρ c) (Proc.devRef .tc main_arg11) = W6 m ρ c (Proc.devRef .tc main_arg11) by after_results).trans (main_arg11_at6 m ρ c)
theorem main_arg12_at2 (c : Dev nD) : W2 m ρ c (Proc.devRef .tc main_arg12) = (m ((c : Thread nD τ).loc main_arg12)) :=
  (W2_of_ne m ρ c main_arg12 (by decide)).trans (main_arg12_at1 m ρ c)
theorem main_arg12_at3 (c : Dev nD) : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results).trans (main_arg12_at2 m ρ c)
theorem main_arg12_at4 (c : Dev nD) : W4 m ρ c (Proc.devRef .tc main_arg12) = (m ((c : Thread nD τ).loc main_arg12)) :=
  (W4_of_ne m ρ c main_arg12 (by decide)).trans (main_arg12_at3 m ρ c)
theorem main_arg12_at5 (c : Dev nD) : W5 m ρ c (Proc.devRef .tc main_arg12) = (m ((c : Thread nD τ).loc main_arg12)) :=
  (show StableHlo.after hostOps2 (W4 m ρ c) (Proc.devRef .tc main_arg12) = W4 m ρ c (Proc.devRef .tc main_arg12) by after_results).trans (main_arg12_at4 m ρ c)
theorem main_arg12_at6 (c : Dev nD) : W6 m ρ c (Proc.devRef .tc main_arg12) = (m ((c : Thread nD τ).loc main_arg12)) :=
  (W6_of_ne m ρ c main_arg12 (by decide)).trans (main_arg12_at5 m ρ c)

/-! ## The three layers -/

theorem main_v7_at2 (c : Dev nD) : W2 m ρ c (Proc.devRef .tc main_v7)
    = prod (n := 50000) (c := 128) (b := 128) (m ((c : Thread nD τ).loc main_arg0)) (packed128 (m ((c : Thread nD τ).loc main_arg3)) (m ((c : Thread nD τ).loc main_arg4))) := by
  refine ((W2_arr m ρ c 2).trans (Region0.final (V1 m ρ) c)).trans ?_
  show prod (n := 50000) (c := 128) (b := 128) (W1 m ρ c (Proc.devRef .tc main_arg0)) (W1 m ρ c (Proc.devRef .tc main_v4)) = _
  rw [main_arg0_at1, main_v4_at1]

set_option maxHeartbeats 4000000 in
theorem main_v22_at3 (c : Dev nD) : W3 m ρ c (Proc.devRef .tc main_v22) = hidden1 (m ((c : Thread nD τ).loc main_arg0)) (m ((c : Thread nD τ).loc main_arg1)) (m ((c : Thread nD τ).loc main_arg3)) (m ((c : Thread nD τ).loc main_arg4)) := by
  have e : W3 m ρ c (Proc.devRef .tc main_v22) = layerOfPacked (W2 m ρ c (Proc.devRef .tc main_v7)) (W2 m ρ c (Proc.devRef .tc main_v1)) (W2 m ρ c (Proc.devRef .tc main_v3)) := by
    show StableHlo.after hostOps1 (W2 m ρ c) (Proc.devRef .tc main_v22) = _
    after_results_simp <;> rfl
  rw [e, main_v7_at2, main_v1_at2, main_v3_at2]; rfl

theorem main_v23_at4 (c : Dev nD) : W4 m ρ c (Proc.devRef .tc main_v23)
    = prod (n := 50000) (c := 64) (b := 128) (hidden1 (m ((c : Thread nD τ).loc main_arg0)) (m ((c : Thread nD τ).loc main_arg1)) (m ((c : Thread nD τ).loc main_arg3)) (m ((c : Thread nD τ).loc main_arg4))) (packed64 (m ((c : Thread nD τ).loc main_arg5)) (m ((c : Thread nD τ).loc main_arg6))) := by
  refine ((W4_arr m ρ c 2).trans (Region1.final (V3 m ρ) c)).trans ?_
  show prod (n := 50000) (c := 64) (b := 128) (W3 m ρ c (Proc.devRef .tc main_v22)) (W3 m ρ c (Proc.devRef .tc main_v5)) = _
  rw [main_v22_at3, main_v5_at3]

set_option maxHeartbeats 4000000 in
theorem main_v38_at5 (c : Dev nD) : W5 m ρ c (Proc.devRef .tc main_v38) = hiddenNext (hidden1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6)) := by
  have e : W5 m ρ c (Proc.devRef .tc main_v38) = layerOfPacked (W4 m ρ c (Proc.devRef .tc main_v23)) (W4 m ρ c (Proc.devRef .tc main_v1)) (W4 m ρ c (Proc.devRef .tc main_v3)) := by
    show StableHlo.after hostOps2 (W4 m ρ c) (Proc.devRef .tc main_v38) = _
    after_results_simp <;> rfl
  rw [e, main_v23_at4, main_v1_at4, main_v3_at4]; rfl

theorem main_v39_at6 (c : Dev nD) : W6 m ρ c (Proc.devRef .tc main_v39)
    = prod (n := 50000) (c := 64) (b := 128) (hiddenNext (hidden1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (packed64 (m ((c : Thread nD τ).loc main_arg7)) (m ((c : Thread nD τ).loc main_arg8))) := by
  refine ((W6_arr m ρ c 2).trans (Region2.final (V5 m ρ) c)).trans ?_
  show prod (n := 50000) (c := 64) (b := 128) (W5 m ρ c (Proc.devRef .tc main_v38)) (W5 m ρ c (Proc.devRef .tc main_v6)) = _
  rw [main_v38_at5, main_v6_at5]

/-! ## Pooling, the bias rows, and the classifier -/

set_option maxHeartbeats 4000000 in
theorem main_v66_at7 (c : Dev nD) : W7 m ρ c (Proc.devRef .tc main_v66) = pool (hiddenNext (hiddenNext (hidden1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg1)) (m ((c : Thread nD τ).loc main_arg7)) (m ((c : Thread nD τ).loc main_arg8))) (m ((c : Thread nD τ).loc main_arg2)) := by
  have e : W7 m ρ c (Proc.devRef .tc main_v66) = pool (layerOfPacked (W6 m ρ c (Proc.devRef .tc main_v39)) (W6 m ρ c (Proc.devRef .tc main_v1)) (W6 m ρ c (Proc.devRef .tc main_v3))) (W6 m ρ c (Proc.devRef .tc main_arg2)) := by
    show StableHlo.after hostOps3 (W6 m ρ c) (Proc.devRef .tc main_v66) = _
    after_results_simp <;> rfl
  rw [e, main_v39_at6, main_v1_at6, main_v3_at6, main_arg2_at6]; rfl

set_option maxHeartbeats 4000000 in
theorem main_v67_at7 (c : Dev nD) : W7 m ρ c (Proc.devRef .tc main_v67) = shapeCast _ (m ((c : Thread nD τ).loc main_arg10)) Facts₀.shapeCasts_S64_S1x64 := by
  have e : W7 m ρ c (Proc.devRef .tc main_v67) = shapeCast _ (W6 m ρ c (Proc.devRef .tc main_arg10)) Facts₀.shapeCasts_S64_S1x64 := by
    show StableHlo.after hostOps3 (W6 m ρ c) (Proc.devRef .tc main_v67) = _
    after_results_simp <;> rfl
  rw [e, main_arg10_at6]

set_option maxHeartbeats 4000000 in
theorem main_v68_at7 (c : Dev nD) : W7 m ρ c (Proc.devRef .tc main_v68) = shapeCast _ (m ((c : Thread nD τ).loc main_arg12)) Facts₀.shapeCasts_S1_S1x1 := by
  have e : W7 m ρ c (Proc.devRef .tc main_v68) = shapeCast _ (W6 m ρ c (Proc.devRef .tc main_arg12)) Facts₀.shapeCasts_S1_S1x1 := by
    show StableHlo.after hostOps3 (W6 m ρ c) (Proc.devRef .tc main_v68) = _
    after_results_simp <;> rfl
  rw [e, main_arg12_at6]

/-- The result buffer at the last boundary is the program's result function of the argument arrays. -/
theorem main_v69_at8 (c : Dev nD) : W8 m ρ c (Proc.devRef .tc main_v69)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W8_arr m ρ c 5).trans (Region3.final (V7 m ρ) c)).trans ?_
  show Gen.k3_pay1 (F := Ideal) (W7 m ρ c (Proc.devRef .tc main_v66)) (W7 m ρ c (Proc.devRef .tc main_arg9)) (W7 m ρ c (Proc.devRef .tc main_v67)) (W7 m ρ c (Proc.devRef .tc main_arg11)) (W7 m ρ c (Proc.devRef .tc main_v68)) = _
  rw [main_v66_at7, main_arg9_at7, main_v67_at7, main_arg11_at7, main_v68_at7]; rfl

end Cert.KernelIdeal.Fold

end
-- ==== Proof.RefValue.lean ====
/-
  The reference program's result as one function of its argument arrays.

  Each of its three layers multiplies the node features by the layer's first weight matrix (the self term), gathers
  the features' rows through the source words and multiplies them by the second weight matrix (the messages),
  accumulates the messages onto the destination rows, adds the self term and clips at zero. The node features are then
  averaged per graph, and a two-layer classifier (a product plus a bias row, clipped at zero, then a product plus a
  bias) gives the result.
-/
import proofs.«170700_j37177236914939_2_alg».proof.Proof.Gen.ReferenceIdeal.Run
import Idealize.ShloMosaic.PureOps.Ideal

set_option maxRecDepth 16384

noncomputable section

namespace Cert.ReferenceIdeal.Stages

open Cert.ReferenceIdeal Cert.ReferenceIdeal.Facts₀
open Idealize.ShloMosaic Idealize.ShloMosaic.TcCoe Idealize.SL.Sem

abbrev Words (s : Shape) := IVec s 32
abbrev Reals (s : Shape) := FVec Ideal s .f32

/-- Row 0 of the edge list: each edge's source word. -/
def srcWords (ei : Words S2x800000) : Words S800000 :=
  shapeCast _ (extractStridedSlice S1x800000 ![0, 0] ei slices_S2x800000_S1x800000_0_0) shapeCasts_S1x800000_S800000

/-- Row 1 of the edge list: each edge's destination word. -/
def dstWords (ei : Words S2x800000) : Words S800000 :=
  shapeCast _ (extractStridedSlice S1x800000 ![1, 0] ei slices_S2x800000_S1x800000_1_0) shapeCasts_S1x800000_S800000

/-- The source words as a column of gather indices: a negative word is shifted up by the node count first. -/
def gatherColumn (s : Words S800000) : Words S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A layer's output from its self term and its per-edge messages. -/
def combine (self : Reals S50000x64) (msg : Reals S800000x64) (d : Words S800000) : Reals S50000x64 :=
  maximumf (addf self (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d) msg))
    (broadcastInDim S50000x64 ![] bcast_S_S50000x64 (constant S_ .f32 0x00000000#32))

/-- The first layer: 128 input features. -/
def layer1 (x : Reals S50000x128) (ei : Words S2x800000) (Wa Wb : Reals S128x64) : Reals S50000x64 :=
  combine (Host.dotGeneral dot_S50000x128_S128x64_S50000x64_1_0_0_1_n_n none x Wa)
    (Host.dotGeneral dot_S800000x128_S128x64_S800000x64_1_0_0_1_n_n none
      (Host.gather gather_S50000x128_S800000x1_S800000x128_1_0_n_n_0_1_1128 x (gatherColumn (srcWords ei))) Wb)
    (dstWords ei)

/-- A later layer: 64 input features. -/
def layerNext (h : Reals S50000x64) (ei : Words S2x800000) (Wa Wb : Reals S64x64) : Reals S50000x64 :=
  combine (Host.dotGeneral dot_S50000x64_S64x64_S50000x64_1_0_0_1_n_n none h Wa)
    (Host.dotGeneral dot_S800000x64_S64x64_S800000x64_1_0_0_1_n_n none
      (Host.gather gather_S50000x64_S800000x1_S800000x64_1_0_n_n_0_1_164 h (gatherColumn (srcWords ei))) Wb)
    (dstWords ei)

/-- The mean of the node features over each graph. -/
def pool (h : Reals S50000x64) (batch : Words S50000) : Reals S512x64 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 batch)
            (broadcastInDim S50000 ![] bcast_S_S50000 (constant S_ .f32 0x3F800000#32)))
          (broadcastInDim S512 ![] bcast_S_S512 (constant S_ .f32 0x3F800000#32)))))

/-- The classifier: a product plus a bias row, clipped at zero, then a product plus a bias. -/
def classifier (p : Reals S512x64) (cW1 : Reals S64x64) (cb1 : Reals S64) (cW2 : Reals S64x1) (cb2 : Reals S1) :
    Reals S512x1 :=
  addf
    (Host.dotGeneral dot_S512x64_S64x1_S512x1_1_0_0_1_n_n none
      (maximumf
        (addf (Host.dotGeneral dot_S512x64_S64x64_S512x64_1_0_0_1_n_n none p cW1)
          (broadcastInDim S512x64 ![0, 1] bcast_S1x64_S512x64_0_1 (broadcastInDim S1x64 ![1] bcast_S64_S1x64_1 cb1)))
        (broadcastInDim S512x64 ![] bcast_S_S512x64 (constant S_ .f32 0x00000000#32)))
      cW2)
    (broadcastInDim S512x1 ![0, 1] bcast_S1x1_S512x1_0_1 (broadcastInDim S1x1 ![1] bcast_S1_S1x1_1 cb2))

/-- The program's result. -/
def result (x : Reals S50000x128) (ei : Words S2x800000) (batch : Words S50000) (W11 W21 : Reals S128x64)
    (W12 W22 W13 W23 cW1 : Reals S64x64) (cb1 : Reals S64) (cW2 : Reals S64x1) (cb2 : Reals S1) : Reals S512x1 :=
  classifier (pool (layerNext (layerNext (layer1 x ei W11 W21) ei W12 W22) ei W13 W23) batch) cW1 cb1 cW2 cb2

variable (m : (ℓ : Loc nD τ sig) → Buf (Elt Ideal) ℓ)

/-- The run's composed term is this function of the argument arrays. -/
theorem res_eq (c : Dev nD) : Cert.ReferenceIdeal.Value.res_out0 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show Cert.ReferenceIdeal.Value.res_main_v66 m c = _
  unfold Cert.ReferenceIdeal.Value.res_main_v66
  rfl

end Cert.ReferenceIdeal.Stages

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibDenseSpellings.lean ====
/-
  A dense layer in a kernel body's spelling and in the host's, as whole arrays.

  A kernel body multiplies its `n` rows into a zero accumulator and adds the bias, held as a `1 × cout` row,
  repeated down the rows; the host takes a general product and adds the bias vector broadcast first along dimension 1
  and then along both dimensions. On exact values entry `(p, q)` of either is the sum over `k` of the input at
  `(p, k)` times the weight at `(k, q)`, plus the bias at `q`: the two arrays are equal. The operands of the two
  products may be held in different float formats as long as they agree entry by entry (narrowing an exact value to a
  shorter format does not change it). For any extents.
-/
import proofs.«170700_j37177236914939_2_alg».proof.Proof.LibPlainDot
import proofs.«170700_j37177236914939_2_alg».proof.Proof.LibRowBroadcasts
import Idealize.ShloMosaic.Lib.Pipeline.Value
import Idealize.ShloMosaic.Lib.ValueIdx
import Idealize.ShloMosaic.PureOps.Ideal.Laws

noncomputable section

open scoped BigOperators

namespace Cert.Lib.DenseSpellings

open Idealize.ShloMosaic Idealize.ShloMosaic.ValueIdx Cert.Lib

variable {n cin cout : Nat}

/-- A length-`cout` vector broadcast along dimension 1 to a `1 × cout` row reads, at `(0, q)`, the vector at `q`. -/
theorem dimVec_apply {α : Type} (v : (⟨1, ![cout]⟩ : Shape).Idx → α)
    (h1 : (⟨1, ![cout]⟩ : Shape).BroadcastsInDim ⟨2, ![1, cout]⟩ ![1]) (u : Fin 1) (q : Fin cout) :
    broadcastInDim ⟨2, ![1, cout]⟩ ![1] h1 v (ix2 u q) = v (ix1 q) :=
  broadcastInDim_apply _ h1 v (ix2 u q) (ix1 q) fun ax => by
    match ax with
    | ⟨0, _⟩ =>
      show q.val = if cout = 1 then 0 else q.val
      split
      · have := q.isLt; omega
      · rfl

/-- The kernel body's dense layer is the host's, when their operands agree entry by entry and the body's bias row is
    the host's bias vector laid out as a row. -/
theorem kernel_eq_host
    (wf : DotDims.WF ⟨2, ![n, cin]⟩ ⟨2, ![cin, cout]⟩ ⟨2, ![n, cout]⟩ [1] [0] [0] [1] [] [])
    {φ₁ φ₂ ψ₁ ψ₂ : FTy} (X : FVec Ideal ⟨2, ![n, cin]⟩ φ₁) (W : FVec Ideal ⟨2, ![cin, cout]⟩ φ₂)
    (X' : FVec Ideal ⟨2, ![n, cin]⟩ ψ₁) (W' : FVec Ideal ⟨2, ![cin, cout]⟩ ψ₂)
    (hX : ∀ i, X i = X' i) (hW : ∀ i, W i = W' i)
    (bias : FVec Ideal ⟨1, ![cout]⟩ .f32) (row : FVec Ideal ⟨2, ![1, cout]⟩ .f32)
    (h1 : (⟨1, ![cout]⟩ : Shape).BroadcastsInDim ⟨2, ![1, cout]⟩ ![1])
    (hrow : row = broadcastInDim ⟨2, ![1, cout]⟩ ![1] h1 bias)
    (hb : (⟨2, ![1, cout]⟩ : Shape).Broadcasts ⟨2, ![n, cout]⟩)
    (h2 : (⟨2, ![1, cout]⟩ : Shape).BroadcastsInDim ⟨2, ![n, cout]⟩ ![0, 1]) :
    addf (matmul (PlainDot.dims wf) none X W (constant ⟨2, ![n, cout]⟩ .f32 0x00000000#32))
        (broadcastTo ⟨2, ![n, cout]⟩ row hb)
      = addf (Host.dotGeneral (PlainDot.dims wf) none X' W')
          (broadcastInDim ⟨2, ![n, cout]⟩ ![0, 1] h2 (broadcastInDim ⟨2, ![1, cout]⟩ ![1] h1 bias)) := by
  funext j
  obtain ⟨p, q, rfl⟩ : ∃ (p : Fin n) (q : Fin cout), j = ix2 p q := ⟨j 0, j 1, eq_ix2 j⟩
  show matmul (PlainDot.dims wf) none X W (constant ⟨2, ![n, cout]⟩ .f32 0x00000000#32) (ix2 p q)
      + broadcastTo ⟨2, ![n, cout]⟩ row hb (ix2 p q)
    = Host.dotGeneral (PlainDot.dims wf) none X' W' (ix2 p q)
      + broadcastInDim ⟨2, ![n, cout]⟩ ![0, 1] h2 (broadcastInDim ⟨2, ![1, cout]⟩ ![1] h1 bias) (ix2 p q)
  rw [PlainDot.matmul_zero_apply wf none X W p q, PlainDot.dotGeneral_apply wf none X' W' p q,
    Rows.bcastRow_apply row hb p q, Rows.dimRow_apply _ h2 p q, hrow]
  refine congrArg (· + _) (Finset.sum_congr rfl fun k _ => ?_)
  rw [hX, hW]

end Cert.Lib.DenseSpellings

end
-- ==== Proof.Bridge.lean ====
/-
  The idealized kernel program and the idealized reference compute the same function of the argument arrays.

  Layer by layer. The kernel program multiplies the node features once by a layer's two weight matrices packed
  side by side, takes the first 64 columns as the self term, and gathers rows of the last 64 columns through the source
  words as the messages; the reference multiplies the features by the first matrix for the self term, and gathers the
  features' rows first and multiplies the gathered rows by the second matrix for the messages. A column of the packed
  product is the corresponding column of the product with the matrix that column came from, and a row gathered from a
  product is the product of the gathered row: the self terms are equal and the messages are equal, entry by entry, as
  the same finite sums. What is done with them next — accumulate the messages onto the destination rows, add, clip at
  zero — is the same operations in both programs, and so is the pooling. The classifier is a dense layer, a clip at
  zero and a dense layer, in a kernel body's spelling on one side and the host's on the other. Nothing here needs the
  inputs to be finite.
-/
import proofs.«170700_j37177236914939_2_alg».proof.Proof.KernelStages
import proofs.«170700_j37177236914939_2_alg».proof.Proof.RefValue
import proofs.«170700_j37177236914939_2_alg».proof.Proof.LibPackedProjection
import proofs.«170700_j37177236914939_2_alg».proof.Proof.LibDenseSpellings
import proofs.«170700_j37177236914939_2_alg».proof.Proof.LibRowBroadcasts
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx
open Cert.Lib.PackedProjection (prod)

/-! ## The shared host operations -/

theorem srcWords_eq (ei : IVec ⟨2, ![2, 800000]⟩ 32) : Cert.KernelIdeal.Stages.srcWords ei = Cert.ReferenceIdeal.Stages.srcWords ei := rfl
theorem dstWords_eq (ei : IVec ⟨2, ![2, 800000]⟩ 32) : Cert.KernelIdeal.Stages.dstWords ei = Cert.ReferenceIdeal.Stages.dstWords ei := rfl
theorem gatherColumn_eq (s : IVec ⟨1, ![800000]⟩ 32) : Cert.KernelIdeal.Stages.gatherColumn s = Cert.ReferenceIdeal.Stages.gatherColumn s := rfl
theorem combine_eq (self : FVec Ideal ⟨2, ![50000, 64]⟩ .f32) (msg : FVec Ideal ⟨2, ![800000, 64]⟩ .f32)
    (d : IVec ⟨1, ![800000]⟩ 32) : Cert.KernelIdeal.Stages.combine self msg d = Cert.ReferenceIdeal.Stages.combine self msg d := rfl
theorem pool_eq (h : FVec Ideal ⟨2, ![50000, 64]⟩ .f32) (batch : IVec ⟨1, ![50000]⟩ 32) :
    Cert.KernelIdeal.Stages.pool h batch = Cert.ReferenceIdeal.Stages.pool h batch := rfl

/-! ## A layer -/

/-- The first layer (128 input features). -/
theorem layer1_eq (x : FVec Ideal ⟨2, ![50000, 128]⟩ .f32) (ei : IVec ⟨2, ![2, 800000]⟩ 32)
    (Wa Wb : FVec Ideal ⟨2, ![128, 64]⟩ .f32) :
    Cert.KernelIdeal.Stages.hidden1 x ei Wa Wb = Cert.ReferenceIdeal.Stages.layer1 x ei Wa Wb := by
  have A := Cert.Lib.PackedProjection.self_part (n := 50000) (c := 128) (b := 128) (b1 := 64) (b2 := 64) x Wa Wb
    Cert.KernelIdeal.Facts₀.concatenates_S128x64_S128x64_S128x128_d1 Cert.KernelIdeal.Facts₀.slices_S50000x128_S50000x64_0_0
    Cert.ReferenceIdeal.Facts₀.dot_S50000x128_S128x64_S50000x64_1_0_0_1_n_n_wf (by decide)
  have B := Cert.Lib.PackedProjection.message_part (n := 50000) (c := 128) (b := 128) (b1 := 64) (b2 := 64)
    (R := 800000) (w := 32) (by decide) x Wa Wb (Cert.ReferenceIdeal.Stages.gatherColumn (Cert.ReferenceIdeal.Stages.srcWords ei))
    Cert.KernelIdeal.Facts₀.concatenates_S128x64_S128x64_S128x128_d1 Cert.KernelIdeal.Facts₀.slices_S50000x128_S50000x64_0_64
    Cert.KernelIdeal.Facts₀.gather_S50000x64_S800000x1_S800000x64_1_0_n_n_0_1_164_wf
    Cert.ReferenceIdeal.Facts₀.gather_S50000x128_S800000x1_S800000x128_1_0_n_n_0_1_1128_wf
    Cert.ReferenceIdeal.Facts₀.dot_S800000x128_S128x64_S800000x64_1_0_0_1_n_n_wf rfl
  exact (congrArg₂ (fun a b => Cert.ReferenceIdeal.Stages.combine a b (Cert.ReferenceIdeal.Stages.dstWords ei)) A B)

/-- A later layer (64 input features). -/
theorem layerNext_eq (h : FVec Ideal ⟨2, ![50000, 64]⟩ .f32) (ei : IVec ⟨2, ![2, 800000]⟩ 32)
    (Wa Wb : FVec Ideal ⟨2, ![64, 64]⟩ .f32) :
    Cert.KernelIdeal.Stages.hiddenNext h ei Wa Wb = Cert.ReferenceIdeal.Stages.layerNext h ei Wa Wb := by
  have A := Cert.Lib.PackedProjection.self_part (n := 50000) (c := 64) (b := 128) (b1 := 64) (b2 := 64) h Wa Wb
    Cert.KernelIdeal.Facts₀.concatenates_S64x64_S64x64_S64x128_d1 Cert.KernelIdeal.Facts₀.slices_S50000x128_S50000x64_0_0
    Cert.ReferenceIdeal.Facts₀.dot_S50000x64_S64x64_S50000x64_1_0_0_1_n_n_wf (by decide)
  have B := Cert.Lib.PackedProjection.message_part (n := 50000) (c := 64) (b := 128) (b1 := 64) (b2 := 64)
    (R := 800000) (w := 32) (by decide) h Wa Wb (Cert.ReferenceIdeal.Stages.gatherColumn (Cert.ReferenceIdeal.Stages.srcWords ei))
    Cert.KernelIdeal.Facts₀.concatenates_S64x64_S64x64_S64x128_d1 Cert.KernelIdeal.Facts₀.slices_S50000x128_S50000x64_0_64
    Cert.KernelIdeal.Facts₀.gather_S50000x64_S800000x1_S800000x64_1_0_n_n_0_1_164_wf
    Cert.ReferenceIdeal.Facts₀.gather_S50000x64_S800000x1_S800000x64_1_0_n_n_0_1_164_wf
    Cert.ReferenceIdeal.Facts₀.dot_S800000x64_S64x64_S800000x64_1_0_0_1_n_n_wf rfl
  exact (congrArg₂ (fun a b => Cert.ReferenceIdeal.Stages.combine a b (Cert.ReferenceIdeal.Stages.dstWords ei)) A B)

/-! ## The classifier -/

/-- The zero the kernel body clips at, repeated over the block, is the host's zero broadcast. -/
theorem zero_splat (hb : (⟨0, ![]⟩ : Shape).BroadcastsInDim ⟨2, ![512, 64]⟩ ![]) :
    (broadcast ⟨2, ![512, 64]⟩ (Scalar.ofBits (F := Ideal) .f32 0x00000000#32) : FVec Ideal ⟨2, ![512, 64]⟩ .f32)
      = broadcastInDim ⟨2, ![512, 64]⟩ ![] hb (constant (F := Ideal) ⟨0, ![]⟩ .f32 0x00000000#32) := by
  funext i
  exact (broadcastInDim_apply _ hb (constant (F := Ideal) ⟨0, ![]⟩ .f32 0x00000000#32) i ix0 fun ax => ax.elim0).symm

/-- The hidden activations of the classifier in the kernel body's spelling. -/
def bodyHidden (p : FVec Ideal ⟨2, ![512, 64]⟩ .f32) (W1 : FVec Ideal ⟨2, ![64, 64]⟩ .f32)
    (row : FVec Ideal ⟨2, ![1, 64]⟩ .f32) : FVec Ideal ⟨2, ![512, 64]⟩ .f32 :=
  maximumf
    (addf
      (matmul Cert.KernelIdeal.dot_S512x64_S64x64_S512x64_1_0_0_1_n_n none
        (truncf .bf16 (shapeCast Cert.KernelIdeal.S512x64 p Cert.KernelIdeal.Facts₀.shapeCasts_S512x64_S512x64) Cert.KernelIdeal.Facts₀.bitsLt_bf16_f32)
        (truncf .bf16 W1 Cert.KernelIdeal.Facts₀.bitsLt_bf16_f32) (constant Cert.KernelIdeal.S512x64 .f32 0x00000000#32))
      (broadcastTo Cert.KernelIdeal.S512x64 (shapeCast Cert.KernelIdeal.S1x64 row Cert.KernelIdeal.Facts₀.shapeCasts_S1x64_S1x64) Cert.KernelIdeal.Facts₀.broadcasts_S1x64_S512x64))
    (broadcast Cert.KernelIdeal.S512x64 (Scalar.ofBits .f32 0x00000000#32))

/-- The hidden activations in the host's spelling. -/
def hostHidden (p : FVec Ideal ⟨2, ![512, 64]⟩ .f32) (W1 : FVec Ideal ⟨2, ![64, 64]⟩ .f32)
    (cb1 : FVec Ideal ⟨1, ![64]⟩ .f32) : FVec Ideal ⟨2, ![512, 64]⟩ .f32 :=
  maximumf
    (addf (Host.dotGeneral Cert.ReferenceIdeal.dot_S512x64_S64x64_S512x64_1_0_0_1_n_n none p W1)
      (broadcastInDim Cert.ReferenceIdeal.S512x64 ![0, 1] Cert.ReferenceIdeal.Facts₀.bcast_S1x64_S512x64_0_1
        (broadcastInDim Cert.ReferenceIdeal.S1x64 ![1] Cert.ReferenceIdeal.Facts₀.bcast_S64_S1x64_1 cb1)))
    (broadcastInDim Cert.ReferenceIdeal.S512x64 ![] Cert.ReferenceIdeal.Facts₀.bcast_S_S512x64 (constant Cert.ReferenceIdeal.S_ .f32 0x00000000#32))

theorem hidden_eq (p : FVec Ideal ⟨2, ![512, 64]⟩ .f32) (W1 : FVec Ideal ⟨2, ![64, 64]⟩ .f32)
    (cb1 : FVec Ideal ⟨1, ![64]⟩ .f32) :
    bodyHidden p W1 (shapeCast _ cb1 Cert.KernelIdeal.Facts₀.shapeCasts_S64_S1x64) = hostHidden p W1 cb1 := by
  have D := Cert.Lib.DenseSpellings.kernel_eq_host (n := 512) (cin := 64) (cout := 64)
    Cert.ReferenceIdeal.Facts₀.dot_S512x64_S64x64_S512x64_1_0_0_1_n_n_wf
    (truncf .bf16 (shapeCast Cert.KernelIdeal.S512x64 p Cert.KernelIdeal.Facts₀.shapeCasts_S512x64_S512x64) Cert.KernelIdeal.Facts₀.bitsLt_bf16_f32)
    (truncf .bf16 W1 Cert.KernelIdeal.Facts₀.bitsLt_bf16_f32) p W1
    (fun i => congrFun (shapeCast_self p Cert.KernelIdeal.Facts₀.shapeCasts_S512x64_S512x64) i) (fun _ => rfl) cb1
    (shapeCast Cert.KernelIdeal.S1x64 (shapeCast _ cb1 Cert.KernelIdeal.Facts₀.shapeCasts_S64_S1x64) Cert.KernelIdeal.Facts₀.shapeCasts_S1x64_S1x64)
    Cert.ReferenceIdeal.Facts₀.bcast_S64_S1x64_1
    ((shapeCast_self _ _).trans (Cert.Lib.Rows.castRow_eq_dimRow cb1 Cert.KernelIdeal.Facts₀.shapeCasts_S64_S1x64 Cert.ReferenceIdeal.Facts₀.bcast_S64_S1x64_1))
    Cert.KernelIdeal.Facts₀.broadcasts_S1x64_S512x64 Cert.ReferenceIdeal.Facts₀.bcast_S1x64_S512x64_0_1
  exact congrArg₂ maximumf D (zero_splat Cert.ReferenceIdeal.Facts₀.bcast_S_S512x64)

/-- The classifier body at the pooled features is the reference's classifier. -/
theorem classifier_eq (p : FVec Ideal ⟨2, ![512, 64]⟩ .f32) (W1 : FVec Ideal ⟨2, ![64, 64]⟩ .f32)
    (cb1 : FVec Ideal ⟨1, ![64]⟩ .f32) (W2 : FVec Ideal ⟨2, ![64, 1]⟩ .f32) (cb2 : FVec Ideal ⟨1, ![1]⟩ .f32) :
    Cert.KernelIdeal.Gen.k3_pay1 (F := Ideal) p W1 (shapeCast _ cb1 Cert.KernelIdeal.Facts₀.shapeCasts_S64_S1x64) W2
        (shapeCast _ cb2 Cert.KernelIdeal.Facts₀.shapeCasts_S1_S1x1)
      = Cert.ReferenceIdeal.Stages.classifier p W1 cb1 W2 cb2 := by
  have D := Cert.Lib.DenseSpellings.kernel_eq_host (n := 512) (cin := 64) (cout := 1)
    Cert.ReferenceIdeal.Facts₀.dot_S512x64_S64x1_S512x1_1_0_0_1_n_n_wf
    (truncf .bf16 (bodyHidden p W1 (shapeCast _ cb1 Cert.KernelIdeal.Facts₀.shapeCasts_S64_S1x64)) Cert.KernelIdeal.Facts₀.bitsLt_bf16_f32)
    (truncf .bf16 W2 Cert.KernelIdeal.Facts₀.bitsLt_bf16_f32) (hostHidden p W1 cb1) W2
    (fun i => congrFun (hidden_eq p W1 cb1) i) (fun _ => rfl) cb2
    (shapeCast Cert.KernelIdeal.S1x1 (shapeCast _ cb2 Cert.KernelIdeal.Facts₀.shapeCasts_S1_S1x1) Cert.KernelIdeal.Facts₀.shapeCasts_S1x1_S1x1)
    Cert.ReferenceIdeal.Facts₀.bcast_S1_S1x1_1
    ((shapeCast_self _ _).trans (Cert.Lib.Rows.castRow_eq_dimRow cb2 Cert.KernelIdeal.Facts₀.shapeCasts_S1_S1x1 Cert.ReferenceIdeal.Facts₀.bcast_S1_S1x1_1))
    Cert.KernelIdeal.Facts₀.broadcasts_S1x1_S512x1 Cert.ReferenceIdeal.Facts₀.bcast_S1x1_S512x1_0_1
  exact D

/-! ## The whole -/

/-- The two programs' results are one function of the argument arrays. -/
theorem result_eq (x : FVec Ideal ⟨2, ![50000, 128]⟩ .f32) (ei : IVec ⟨2, ![2, 800000]⟩ 32)
    (batch : IVec ⟨1, ![50000]⟩ 32) (W11 W21 : FVec Ideal ⟨2, ![128, 64]⟩ .f32)
    (W12 W22 W13 W23 cW1 : FVec Ideal ⟨2, ![64, 64]⟩ .f32) (cb1 : FVec Ideal ⟨1, ![64]⟩ .f32)
    (cW2 : FVec Ideal ⟨2, ![64, 1]⟩ .f32) (cb2 : FVec Ideal ⟨1, ![1]⟩ .f32) :
    Cert.KernelIdeal.Stages.result x ei batch W11 W21 W12 W22 W13 W23 cW1 cb1 cW2 cb2
      = Cert.ReferenceIdeal.Stages.result x ei batch W11 W21 W12 W22 W13 W23 cW1 cb1 cW2 cb2 := by
  unfold Cert.KernelIdeal.Stages.result Cert.ReferenceIdeal.Stages.result
  rw [layer1_eq, layerNext_eq, layerNext_eq, pool_eq, classifier_eq]

end Cert.Bridge

end
-- ==== Proof.lean ====
/-
  The certificate of a three-layer graph network with mean pooling and a two-layer classifier, its dense products
  computed by kernels, against a plain reference.

  Both programs compute, for node features `x`, an edge list, per-node graph words, three pairs of weight
  matrices and a classifier's two weight matrices and two bias vectors: three times "self term plus the messages
  accumulated onto the destination rows, clipped at zero", then the per-graph mean of the node features, then a dense
  layer clipped at zero and a dense layer. The kernel program forms each layer's self term and message projection
  with one product against the two weight matrices packed side by side, and gathers rows of the projected messages; the
  reference forms the self term with the first matrix, gathers the feature rows, and multiplies the gathered rows by
  the second matrix. Column by column and row by row these are the same finite sums, so the two programs' results
  are equal on the extended reals, with no use of the inputs' finiteness.

  The three frames: the two kernel programs' runs are four launches among stretches of host operations, each launch's
  body run at every grid point; the reference is a straight line of host operations. The idealization rewrote
  nothing, so it preserves the kernel program trivially.
-/
import proofs.«170700_j37177236914939_2_alg».proof.Defs
import proofs.«170700_j37177236914939_2_alg».proof.Proof.Gen.Kernel
import proofs.«170700_j37177236914939_2_alg».proof.Proof.Gen.Kernel.Frame
import proofs.«170700_j37177236914939_2_alg».proof.Proof.Gen.KernelIdeal
import proofs.«170700_j37177236914939_2_alg».proof.Proof.Gen.KernelIdeal.Frame
import proofs.«170700_j37177236914939_2_alg».proof.Proof.Gen.ReferenceIdeal
import proofs.«170700_j37177236914939_2_alg».proof.Proof.Gen.ReferenceIdeal.Run
import proofs.«170700_j37177236914939_2_alg».proof.Proof.Gen.Pre_finite_inputs
import proofs.«170700_j37177236914939_2_alg».proof.Proof.KernelRun
import proofs.«170700_j37177236914939_2_alg».proof.Proof.KernelFold
import proofs.«170700_j37177236914939_2_alg».proof.Proof.RefValue
import proofs.«170700_j37177236914939_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at one function of the (agreeing) argument arrays. -/
theorem algebraic : Cert.algebraic_KernelIdeal_ReferenceIdeal := by
  intro m ρ m' ρ' _ hagree
  refine ⟨fun c => Cert.KernelIdeal.Stages.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Fold.main_v69_at8 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Stages.res_eq m' c).trans ?_
    obtain ⟨e0, e1, e2, e3, e4, e5, e6, e7, e8, e9, e10, e11, e12⟩ := hagree c
    rw [e0, e1, e2, e3, e4, e5, e6, e7, e8, e9, e10, e11, e12]
    exact (Cert.Bridge.result_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
